-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x128 .f32) (main_arg1 : FVec F S8192x128 .f32) (main_arg2 : IVec S8192 32) (main_arg3 : FVec F S8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1024x128 : Shape := ⟨2, ![1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 79
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x128, .f32⟩
  | .hbm, ⟨23, _⟩ => ⟨S8192x128, .f32⟩
  | .hbm, ⟨24, _⟩ => ⟨S8192x1, .f32⟩
  | .hbm, ⟨25, _⟩ => ⟨S8192, .f32⟩
  | .hbm, ⟨26, _⟩ => ⟨S8192x128, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1, .f32⟩
  | .hbm, ⟨49, _⟩ => ⟨S8192x128, .f32⟩
  | .hbm, ⟨50, _⟩ => ⟨S8192x128, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192x1, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S8192, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_call0_cst_0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_cst_1 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_v26 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_5 : Ref sig .tc := ⟨.hbm, 69, rfl⟩
abbrev main_v31 : Ref sig .tc := ⟨.hbm, 70, rfl⟩
abbrev main_cst_6 : Ref sig .tc := ⟨.hbm, 71, rfl⟩
abbrev main_v32 : Ref sig .tc := ⟨.hbm, 72, rfl⟩
abbrev main_v33 : Ref sig .tc := ⟨.hbm, 73, rfl⟩
abbrev main_cst_7 : Ref sig .tc := ⟨.hbm, 74, rfl⟩
abbrev main_v34 : Ref sig .tc := ⟨.hbm, 75, rfl⟩
abbrev main_cst_8 : Ref sig .tc := ⟨.hbm, 76, rfl⟩
abbrev main_v35 : Ref sig .tc := ⟨.hbm, 77, rfl⟩
abbrev main_v36 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  transposes_S1024x128_p1_0_S128x1024 : S1024x128.Transposes [1, 0] S128x1024
  reduces_S1024x1024_S1024 : S1024x1024.Reduces [1] S1024
  shapeCasts_S1024_S1024x1 : S1024.ShapeCasts S1024x1
  shapeCasts_S8192x1_S8192 : S8192x1.ShapeCasts S8192
  bcast_S_S8192 : S_.BroadcastsInDim S8192 (![] : Fin 0 → Fin S8192.rank)
  reducesTo_S8192x128_S_d0_1 : S8192x128.ReducesTo [0, 1] S_
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v7) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S8192x8192 : Shape := ⟨2, ![8192, 8192]⟩

abbrev nBuf : Space → Nat
  | .hbm => 87
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1, .f32⟩
  | .hbm, ⟨57, _⟩ => ⟨S8192x128, .f32⟩
  | .hbm, ⟨58, _⟩ => ⟨S8192x128, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1, .f32⟩
  | .hbm, ⟨72, _⟩ => ⟨S8192x128, .f32⟩
  | .hbm, ⟨73, _⟩ => ⟨S8192x128, .f32⟩
  | .hbm, ⟨74, _⟩ => ⟨S8192x128, .f32⟩
  | .hbm, ⟨75, _⟩ => ⟨S8192x128, .f32⟩
  | .hbm, ⟨76, _⟩ => ⟨S8192x128, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_call0_cst_0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_cst_1 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_v31 : Ref sig .tc := ⟨.hbm, 58, rfl⟩
abbrev main_call1_cst : Ref sig .tc := ⟨.hbm, 59, rfl⟩
abbrev main_call1_v0 : Ref sig .tc := ⟨.hbm, 60, rfl⟩
abbrev main_call1_cst_0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_cst_1 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_8 : Ref sig .tc := ⟨.hbm, 77, rfl⟩
abbrev main_v36 : Ref sig .tc := ⟨.hbm, 78, rfl⟩
abbrev main_cst_9 : Ref sig .tc := ⟨.hbm, 79, rfl⟩
abbrev main_v37 : Ref sig .tc := ⟨.hbm, 80, rfl⟩
abbrev main_v38 : Ref sig .tc := ⟨.hbm, 81, rfl⟩
abbrev main_cst_10 : Ref sig .tc := ⟨.hbm, 82, rfl⟩
abbrev main_v39 : Ref sig .tc := ⟨.hbm, 83, rfl⟩
abbrev main_cst_11 : Ref sig .tc := ⟨.hbm, 84, rfl⟩
abbrev main_v40 : Ref sig .tc := ⟨.hbm, 85, rfl⟩
abbrev main_v41 : Ref sig .tc := ⟨.hbm, 86, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192x128_S_d0_1 : S8192x128.ReducesTo [0, 1] S_
  reducesTo_S8192_S_d0 : S8192.ReducesTo [0] S_
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.Pieces.lean ====
/-
  What one grid point leaves behind, read as values. The body keeps a running column of 1024 partial denominators in a
  scratch buffer: at the first block of columns it stores zeros and then adds that block's row sums; at every later
  block it adds the block's row sums to what the block before left; and at the last block it also writes the column,
  plus the small added word, to the output block. Each of these is one covering store, so what the buffer holds
  afterwards is that store's value, a function of the two input blocks and of what the scratch held before.
-/
import proofs.«167836_j6270652252920_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle block of columns: the scratch ends at what it held plus this block's row sums. -/
theorem scratch_B (c : Dev nD) (i : grid0.Coords) (a2 : Memref sig .tc .vmem S1024x128 .f32) (h2 : a2.IsWhole)
    (a3 : Memref sig .tc .vmem S1024x128 .f32) (h3 : a3.IsWhole) (a4 : Memref sig .tc .vmem S1024x1 .f32) (h4 : a4.IsWhole)
    (a5 : Memref sig .tc .vmem S1024x1 .f32) (h5 : a5.IsWhole) (hc0 : ¬cond0_0 i) (hc1 : ¬cond0_1 i)
    (x0 x1 : Vec F S1024x128 .f32) (xs : Vec F S1024x1 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S1024x128) hz,
    View.ld_unit_zero (S := S1024x1) hz]

/-- The first block of columns: the scratch is zeroed, read back, and ends at zero plus this block's row sums. -/
theorem scratch_A (c : Dev nD) (i : grid0.Coords) (a2 : Memref sig .tc .vmem S1024x128 .f32) (h2 : a2.IsWhole)
    (a3 : Memref sig .tc .vmem S1024x128 .f32) (h3 : a3.IsWhole) (a4 : Memref sig .tc .vmem S1024x1 .f32) (h4 : a4.IsWhole)
    (a5 : Memref sig .tc .vmem S1024x1 .f32) (h5 : a5.IsWhole) (hc0 : cond0_0 i) (hc1 : ¬cond0_1 i)
    (x0 x1 : Vec F S1024x128 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1) hz, View.readCov_unit_zero (S := S1024x1) _ hz]
  simp only [View.readAt_eq_ld, h2.read_unread, h3.read_unread, View.ld_unit_zero (S := S1024x128) hz]

/-- The last block of columns, the scratch: as at a middle block. -/
theorem scratch_C (c : Dev nD) (i : grid0.Coords) (a2 : Memref sig .tc .vmem S1024x128 .f32) (h2 : a2.IsWhole)
    (a3 : Memref sig .tc .vmem S1024x128 .f32) (h3 : a3.IsWhole) (a4 : Memref sig .tc .vmem S1024x1 .f32) (h4 : a4.IsWhole)
    (a5 : Memref sig .tc .vmem S1024x1 .f32) (h5 : a5.IsWhole) (hc0 : ¬cond0_0 i) (hc1 : cond0_1 i)
    (x0 x1 : Vec F S1024x128 .f32) (xs : Vec F S1024x1 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S1024x128) hz,
    View.ld_unit_zero (S := S1024x1) hz]

/-- The last block of columns, the output block: the finished column plus the added word. -/
theorem out_C (c : Dev nD) (i : grid0.Coords) (a2 : Memref sig .tc .vmem S1024x128 .f32) (h2 : a2.IsWhole)
    (a3 : Memref sig .tc .vmem S1024x128 .f32) (h3 : a3.IsWhole) (a4 : Memref sig .tc .vmem S1024x1 .f32) (h4 : a4.IsWhole)
    (a5 : Memref sig .tc .vmem S1024x1 .f32) (h5 : a5.IsWhole) (hc0 : ¬cond0_0 i) (hc1 : cond0_1 i)
    (x0 x1 : Vec F S1024x128 .f32) (xs : Vec F S1024x1 .f32) :
    out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S1024x1) _ hz]
  simp only [View.readAt_eq_ld, h2.read_unread, h3.read_unread, h5.read_unread, View.ld_unit_zero (S := S1024x128) hz,
    View.ld_unit_zero (S := S1024x1) hz]

end Cert.KernelIdeal.Pieces

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.BlockRowSums.lean ====
/-
  One grid point's arithmetic read at an index. From a block `x0` of 1024 rows of the first array and a block `x1` of
  1024 rows of the second, the body forms the 1024 × 1024 matrix of inner products of rows of `x0` with rows of `x1`
  (a change of float format is the identity on extended reals, and the product with the transpose contracts the
  128 coordinates of the two rows), doubles it, exponentiates it, and sums each row over its 1024 columns. It adds that
  column of row sums to the running column. Read at row `r`: what the scratch held there plus
  `∑ c, exp (2 · ⟨x0 r, x1 c⟩)`.
-/
import proofs.«167836_j6270652252920_1_alg».proof.Proof.Gen.KernelIdeal.Skeleton
import proofs.«167836_j6270652252920_1_alg».proof.Proof.LibColumns
import Idealize.ShloMosaic.Lib.Pipeline.Value
import Idealize.ShloMosaic.Lib.ValueIdx
import Idealize.ShloMosaic.PureOps.Ideal.Laws

noncomputable section

namespace Cert.KernelIdeal.BlockRowSums

open Cert.KernelIdeal Cert.KernelIdeal.Gen Idealize.ShloMosaic Idealize.ShloMosaic.ValueIdx

/-- The contraction of the body's matrix product: rows of the left block against columns of the transposed right block. -/
abbrev D := dot_S1024x128_S128x1024_S1024x1024_1_0_0_1_n_n

/-! ## The stages, named -/

/-- The matrix of inner products of rows of `x0` with rows of `x1`. -/
def gram (x0 x1 : FVec Ideal S1024x128 .f32) : FVec Ideal S1024x1024 .f32 :=
  matmul D none (truncf .bf16 (shapeCast S1024x128 x0 shapeCasts_S1024x128_S1024x128) bitsLt_bf16_f32)
    (transpose S128x1024 [1, 0] (truncf .bf16 (shapeCast S1024x128 x1 shapeCasts_S1024x128_S1024x128) bitsLt_bf16_f32)
      transposes_S1024x128_p1_0_S128x1024)
    (constant S1024x1024 .f32 0x00000000#32)

/-- Its entries doubled and exponentiated. -/
def weights (x0 x1 : FVec Ideal S1024x128 .f32) : FVec Ideal S1024x1024 .f32 :=
  exp (mulf (gram x0 x1) (broadcast S1024x1024 (Scalar.ofBits .f32 0x40000000#32)))

/-- Each row's sum over the 1024 columns. -/
def rowSums (x0 x1 : FVec Ideal S1024x128 .f32) : FVec Ideal S1024 .f32 :=
  multiReduction .add [1] S1024 (weights x0 x1) 0x00000000#32 reduces_S1024x1024_S1024 (.inl rfl) rfl

/-- The accumulating store's value is the running column plus the column of row sums. -/
theorem pay2_eq (x0 x1 : FVec Ideal S1024x128 .f32) (acc : FVec Ideal S1024x1 .f32) :
    k0_pay2 (F := Ideal) x0 x1 acc
      = shapeCast S1024x1 (addf acc (shapeCast S1024x1 (rowSums x0 x1) shapeCasts_S1024_S1024x1)) shapeCasts_S1024x1_S1024x1 := rfl

/-! ## Each stage at an index -/

theorem lhs0 (i : S1024x1024.Idx) (q : D.contr.Idx) : (D.lhsIdx i q 0).val = (i 0).val := by
  unfold DotDims.lhsIdx
  rw [dif_neg (show ¬(0 : Fin S1024x128.rank) ∈ D.lhsBatch by decide), dif_pos (show (0 : Fin S1024x128.rank) ∈ D.lhsNonContracting by decide)]
  rfl
theorem lhs1 (i : S1024x1024.Idx) (q : D.contr.Idx) : (D.lhsIdx i q 1).val = (q ⟨0, by decide⟩).val :=
  D.lhsIdx_val_of_single rfl i q
theorem rhs0 (i : S1024x1024.Idx) (q : D.contr.Idx) : (D.rhsIdx i q 0).val = (q ⟨0, by decide⟩).val :=
  D.rhsIdx_val_of_single rfl i q
theorem rhs1 (i : S1024x1024.Idx) (q : D.contr.Idx) : (D.rhsIdx i q 1).val = (i 1).val := by
  unfold DotDims.rhsIdx
  rw [dif_neg (show ¬(1 : Fin S128x1024.rank) ∈ D.rhsBatch by decide), dif_pos (show (1 : Fin S128x1024.rank) ∈ D.rhsNonContracting by decide)]
  rfl

/-- Entry `(r, c)` of the product is the inner product of row `r` of `x0` with row `c` of `x1`. -/
theorem gram_apply (x0 x1 : FVec Ideal S1024x128 .f32) (r c : Fin 1024) :
    gram x0 x1 (ix2 r c) = ∑ d : Fin 128, x0 (ix2 r d) * x1 (ix2 c d) := by
  unfold gram
  simp only [matmul]
  rw [Ideal.matmul_constant_zero_apply, ← Equiv.sum_comp (contrEquiv1 D 128 rfl rfl).symm]
  refine Finset.sum_congr rfl fun d _ => ?_
  have hd := contrEquiv1_symm_val D 128 rfl rfl d
  have el : D.lhsIdx (ix2 r c) ((contrEquiv1 D 128 rfl rfl).symm d) = ix2 r d := funext fun a => Fin.ext (by
    match a with
    | ⟨0, _⟩ => exact lhs0 _ _
    | ⟨1, _⟩ => exact (lhs1 _ _).trans hd)
  have er : D.rhsIdx (ix2 r c) ((contrEquiv1 D 128 rfl rfl).symm d) = ix2 d c := funext fun a => Fin.ext (by
    match a with
    | ⟨0, _⟩ => exact (rhs0 _ _).trans hd
    | ⟨1, _⟩ => exact rhs1 _ _)
  rw [el, er, truncf_apply, shapeCast_self]
  refine congrArg (x0 (ix2 r d) * ·) ?_
  rw [transpose_apply [1, 0] _ transposes_S1024x128_p1_0_S128x1024 (ix2 d c) (ix2 c d) (fun b => by
    match b with
    | ⟨0, _⟩ => rfl
    | ⟨1, _⟩ => rfl), truncf_apply, shapeCast_self]

/-- Entry `(r, c)` of the weights. -/
theorem weights_apply (x0 x1 : FVec Ideal S1024x128 .f32) (r c : Fin 1024) :
    weights x0 x1 (ix2 r c)
      = Ideal.exp ((∑ d : Fin 128, x0 (ix2 r d) * x1 (ix2 c d)) * Ideal.ofBits .f32 0x40000000#32) := by
  rw [← gram_apply]; rfl

/-- Row `r`'s sum. -/
theorem rowSums_apply (x0 x1 : FVec Ideal S1024x128 .f32) (r : Fin 1024) :
    rowSums x0 x1 (ix1 r)
      = ∑ c : Fin 1024, Ideal.exp ((∑ d : Fin 128, x0 (ix2 r d) * x1 (ix2 c d)) * Ideal.ofBits .f32 0x40000000#32) := by
  unfold rowSums
  refine (Ideal.multiReduction_add_single (weights x0 x1) 0x00000000#32 reduces_S1024x1024_S1024 (.inl rfl) rfl (ix1 r)).trans ?_
  show ∑ c : Fin 1024, weights x0 x1 (reduces_S1024x1024_S1024.lift (ix1 r) c) = _
  refine Finset.sum_congr rfl fun c _ => ?_
  refine (congrArg (weights x0 x1) (?_ : reduces_S1024x1024_S1024.lift (ix1 r) c = ix2 r c)).trans (weights_apply x0 x1 r c)
  funext a
  apply Fin.ext
  match a with
  | ⟨0, _⟩ => rfl
  | ⟨1, _⟩ => rfl

/-- The accumulating store's value at row `r`: what the running column held there plus the row's sum. -/
theorem pay2_apply (x0 x1 : FVec Ideal S1024x128 .f32) (acc : FVec Ideal S1024x1 .f32) (r : Fin 1024) (u : Fin 1) :
    k0_pay2 (F := Ideal) x0 x1 acc (ix2 r u)
      = acc (ix2 r u)
        + ∑ c : Fin 1024, Ideal.exp ((∑ d : Fin 128, x0 (ix2 r d) * x1 (ix2 c d)) * Ideal.ofBits .f32 0x40000000#32) := by
  rw [pay2_eq, shapeCast_self, addf_apply, Cert.LibColumns.shapeCast_a_a1_apply, rowSums_apply]

/-- The zeroing store's value is zero at every index. -/
theorem pay1_apply (i : S1024x1.Idx) : k0_pay1 (F := Ideal) i = 0 := by
  unfold k0_pay1
  rw [shapeCast_self]
  exact Ideal.ofBits_zero_f32

/-- The output store's value at an index: the finished column there plus the added word. -/
theorem pay3_apply (acc : FVec Ideal S1024x1 .f32) (i : S1024x1.Idx) :
    k0_pay3 (F := Ideal) acc i = acc i + Ideal.ofBits .f32 0x3089705F#32 := rfl

end Cert.KernelIdeal.BlockRowSums

end
-- ==== Proof.SumByBlocks.lean ====
/-
  A sum over 8192 columns is the sum, over 8 consecutive blocks, of each block's 1024 terms; and a sum accumulated one
  block at a time from zero is the sum over the blocks met so far. Addition of extended reals is commutative and
  associative, so no finiteness is needed for either.
-/
import Mathlib.Algebra.BigOperators.Fin
import Mathlib.Data.EReal.Basic
import Mathlib.Logic.Equiv.Fin.Basic

namespace Cert.SumByBlocks

open Finset

variable {M : Type} [AddCommMonoid M]

/-- Column `1024 * j + c` of the 8192, from its block `j` and its place `c` inside the block. -/
def col (j : Fin 8) (c : Fin 1024) : Fin 8192 := ⟨1024 * j.val + c.val, by have := j.isLt; have := c.isLt; omega⟩

theorem col_val (j : Fin 8) (c : Fin 1024) : (col j c).val = 1024 * j.val + c.val := rfl

/-- The columns are the pairs (block, place in the block). -/
def colEquiv : Fin 8 × Fin 1024 ≃ Fin 8192 where
  toFun p := col p.1 p.2
  invFun k := (⟨k.val / 1024, by have := k.isLt; omega⟩, ⟨k.val % 1024, Nat.mod_lt _ (by norm_num)⟩)
  left_inv p := by
    obtain ⟨j, c⟩ := p
    have hc := c.isLt
    apply Prod.ext <;> apply Fin.ext <;> simp only [col_val] <;> omega
  right_inv k := by
    apply Fin.ext; simp only [col_val]; omega

/-- A sum over all 8192 columns, block by block. -/
theorem sum_cols (f : Fin 8192 → M) : ∑ k : Fin 8192, f k = ∑ j : Fin 8, ∑ c : Fin 1024, f (col j c) := by
  rw [← Equiv.sum_comp colEquiv f, Fintype.sum_prod_type]
  rfl

/-- What an accumulator holds after block `n` when it starts from zero at block `0` and adds block `k`'s
    contribution `s k` at block `k`: the sum of the contributions of blocks `0, …, n`. -/
theorem sum_range_succ_of_step (s : ℕ → M) (acc : ℕ → M) (h0 : acc 0 = 0 + s 0)
    (hstep : ∀ n, acc (n + 1) = acc n + s (n + 1)) (n : ℕ) : acc n = ∑ k ∈ range (n + 1), s k := by
  induction n with
  | zero => rw [h0, zero_add, sum_range_one]
  | succ n ih => rw [hstep, ih, sum_range_succ (n := n + 1)]

end Cert.SumByBlocks
-- ==== Proof.InputBlocks.lean ====
/-
  Which rows a grid point reads. The 64 points run over 8 blocks of 1024 rows of the first array (the slow coordinate,
  `t / 8`) and, for each, 8 blocks of 1024 rows of the second (the fast coordinate, `t % 8`); the output block moves
  with the first. So row `r` of the first input block at point `t` is row `1024 · (t / 8) + r` of the first array, and
  row `c` of the second input block is row `1024 · (t % 8) + c` of the second array.
-/
import proofs.«167836_j6270652252920_1_alg».proof.Proof.Gen.KernelIdeal.Frame
import proofs.«167836_j6270652252920_1_alg».proof.Proof.SumByBlocks
import Idealize.ShloMosaic.Lib.Pipeline.Value
import Idealize.ShloMosaic.Lib.ValueIdx

noncomputable section

namespace Cert.KernelIdeal.InputBlocks

open Cert.KernelIdeal Cert.KernelIdeal.Gen Idealize.ShloMosaic Idealize.ShloMosaic.TcCoe Idealize.ShloMosaic.ValueIdx
open Idealize.SL.Sem Cert.SumByBlocks

variable {F : FTy → Type} [FloatOps F]
variable (m : (ℓ : Loc nD τ sig) → Buf (Elt F) ℓ)

/-- The grid has 64 points. -/
theorem lt_64 (t : Fin cfg0.N) : t.val < 64 := lt_of_lt_of_eq t.isLt (show cfg0.N = 64 from N_0)

/-- The printed index maps, decided once over the grid: the first input and the output follow the slow coordinate,
    the second input the fast one; no window moves along its second axis. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The block of rows of the first array that point `t` reads. -/
def rowBlock (t : Fin cfg0.N) : Fin 8 := ⟨t.val / 8, by have := lt_64 t; omega⟩
/-- The block of rows of the second array that point `t` reads. -/
def colBlock (t : Fin cfg0.N) : Fin 8 := ⟨t.val % 8, Nat.mod_lt _ (by norm_num)⟩

/-- Row `r` of the first input block at point `t` is row `1024 · (t / 8) + r` of the first array. -/
theorem iblk0_apply (c : Dev nD) (t : Fin cfg0.N) (r : Fin 1024) (d : Fin 128) :
    (iblk m c 0 t : Vec F S1024x128 .f32) (ix2 r d) = V m c main_v7 (ix2 (col (rowBlock t) r) d) := by
  obtain ⟨e0, e1, -⟩ := idx_facts t
  unfold iblk
  rw [View.read_apply]
  show V m c main_v7 _ = V m c main_v7 _
  congr 1
  funext a
  apply Fin.ext
  match a with
  | ⟨0, _⟩ => show win0_0.index t (0 : Fin 2) * 1024 + 1 * r.val = 1024 * (t.val / 8) + r.val; rw [e0]; omega
  | ⟨1, _⟩ => show win0_0.index t (1 : Fin 2) * 128 + 1 * d.val = d.val; rw [e1]; omega

/-- Row `k` of the second input block at point `t` is row `1024 · (t % 8) + k` of the second array. -/
theorem iblk1_apply (c : Dev nD) (t : Fin cfg0.N) (k : Fin 1024) (d : Fin 128) :
    (iblk m c 1 t : Vec F S1024x128 .f32) (ix2 k d) = V m c main_v15 (ix2 (col (colBlock t) k) d) := by
  obtain ⟨-, -, e2, e3, -⟩ := idx_facts t
  unfold iblk
  rw [View.read_apply]
  show V m c main_v15 _ = V m c main_v15 _
  congr 1
  funext a
  apply Fin.ext
  match a with
  | ⟨0, _⟩ => show win0_1.index t (0 : Fin 2) * 1024 + 1 * k.val = 1024 * (t.val % 8) + k.val; rw [e2]; omega
  | ⟨1, _⟩ => show win0_1.index t (1 : Fin 2) * 128 + 1 * d.val = d.val; rw [e3]; omega

end Cert.KernelIdeal.InputBlocks

end
-- ==== Proof.Doubling.lean ====
/-
  Two float words and the one law of the extended reals that joins the two programs: the words `0x3F000000` and
  `0x40000000` denote one half and two, and dividing an extended real by one half is doubling it — at the infinities
  too, since the quotient by a nonzero real is the product with its reciprocal on all of `[-∞, +∞]`.
-/
import Idealize.ShloMosaic.PureOps.Ideal
import Idealize.ShloMosaic.PureOps.Ideal.Laws

namespace Cert.Doubling

open Idealize.ShloMosaic

/-- The f32 word `0x3F000000` denotes one half. -/
theorem half_word : Ideal.ofBits .f32 0x3F000000#32 = ((1 / 2 : ℝ) : EReal) := by
  simp [Ideal.ofBits, Ideal.ieee, -EReal.coe_mul]; norm_num

/-- The f32 word `0x40000000` denotes two. -/
theorem two_word : Ideal.ofBits .f32 0x40000000#32 = ((2 : ℝ) : EReal) := by
  simp [Ideal.ofBits, Ideal.ieee, -EReal.coe_mul]; norm_num

/-- Dividing by one half is doubling, for every extended real. -/
theorem div_half_eq_mul_two (s : EReal) :
    Ideal.div s (Ideal.ofBits .f32 0x3F000000#32) = s * Ideal.ofBits .f32 0x40000000#32 := by
  rw [half_word, two_word, Ideal.div_coe (by norm_num : (1 / 2 : ℝ) ≠ 0)]
  norm_num

end Cert.Doubling
-- ==== Proof.Denominator.lean ====
/-
  The contrastive denominator as one function of the two normalized arrays. For rows `zi R` and `zj k` of two
  `[8192, 128]` arrays the weight of the pair is `exp (2 · ⟨zi R, zj k⟩)`; the denominator of row `R` is the sum of
  its weights against all 8192 rows of `zj`, plus the small positive word both programs add. Both programs are read
  against this one function: the tiled program reaches it block of columns by block of columns, the plain one in a
  single sum after dividing by one half instead of doubling.
-/
import Idealize.ShloMosaic.PureOps.Ideal
import Idealize.ShloMosaic.PureOps.Ideal.Laws
import Idealize.ShloMosaic.Lib.ValueIdx
import proofs.«167836_j6270652252920_1_alg».proof.Proof.Doubling
import proofs.«167836_j6270652252920_1_alg».proof.Proof.SumByBlocks

noncomputable section

namespace Cert.Denominator

open Idealize.ShloMosaic Idealize.ShloMosaic.ValueIdx Cert.SumByBlocks

/-- An `[8192, 128]` array of extended reals. -/
abbrev Arr := (⟨2, ![8192, 128]⟩ : Shape).Idx → EReal

/-- The inner product of row `R` of `zi` with row `k` of `zj`. -/
def rowDot (zi zj : Arr) (R k : Fin 8192) : EReal := ∑ d : Fin 128, zi (ix2 R d) * zj (ix2 k d)

/-- The weight of the pair of rows: `exp` of twice their rowDot product. -/
def weight (zi zj : Arr) (R k : Fin 8192) : EReal :=
  Ideal.exp (rowDot zi zj R k * Ideal.ofBits .f32 0x40000000#32)

/-- The denominator of row `R`: its weights against every row of `zj`, plus the added word. -/
def denom (zi zj : Arr) (R : Fin 8192) : EReal :=
  (∑ k : Fin 8192, weight zi zj R k) + Ideal.ofBits .f32 0x3089705F#32

/-- The same weight written with a quotient by one half, as the plain program computes it. -/
theorem weight_eq_div_half (zi zj : Arr) (R k : Fin 8192) :
    Ideal.exp (Ideal.div (rowDot zi zj R k) (Ideal.ofBits .f32 0x3F000000#32)) = weight zi zj R k := by
  rw [Cert.Doubling.div_half_eq_mul_two]; rfl

/-- The weights of row `R` summed block of 1024 columns by block. -/
theorem sum_weight_by_blocks (zi zj : Arr) (R : Fin 8192) :
    ∑ k : Fin 8192, weight zi zj R k = ∑ j : Fin 8, ∑ c : Fin 1024, weight zi zj R (col j c) :=
  sum_cols _

end Cert.Denominator

end
-- ==== Proof.RunningColumn.lean ====
/-
  The running column in closed form. Fix a block of 1024 rows of the first array. As the grid runs over the 8 blocks of
  columns, the scratch column starts from zero at the first block and gains, at block `s`, each row's sum of weights
  against that block's 1024 rows of the second array. So after the block with fast coordinate `j` it holds, at row
  `r`, the sum over blocks `s ≤ j` of those block sums — by induction on the point, never by listing the grid. At the
  last block (`j = 7`) that is the row's sum of weights against all 8192 rows, and the output block receives it plus
  the added word: the denominator.
-/
import proofs.«167836_j6270652252920_1_alg».proof.Proof.Gen.KernelIdeal.Frame
import proofs.«167836_j6270652252920_1_alg».proof.Proof.Pieces
import proofs.«167836_j6270652252920_1_alg».proof.Proof.BlockRowSums
import proofs.«167836_j6270652252920_1_alg».proof.Proof.InputBlocks
import proofs.«167836_j6270652252920_1_alg».proof.Proof.Denominator

noncomputable section

namespace Cert.KernelIdeal.RunningColumn

open Cert.KernelIdeal Cert.KernelIdeal.Gen Idealize.ShloMosaic Idealize.ShloMosaic.TcCoe Idealize.ShloMosaic.ValueIdx
open Idealize.SL.Sem Cert.SumByBlocks Cert.Denominator
open Cert.KernelIdeal.Pieces Cert.KernelIdeal.BlockRowSums Cert.KernelIdeal.InputBlocks

variable (m : (ℓ : Loc nD τ sig) → Buf (Elt Ideal) ℓ)

/-- The two normalized arrays as the region finds them. -/
abbrev zi (c : Dev nD) : Arr := V m c main_v7
abbrev zj (c : Dev nD) : Arr := V m c main_v15

/-- Block `q` of rows against block `s` of columns: row `r`'s sum of weights over that block's 1024 columns. Blocks are
    taken modulo 8 so that the term is defined at every natural number. -/
def blockSum (c : Dev nD) (q s : ℕ) (r : Fin 1024) : EReal :=
  ∑ k : Fin 1024, weight (zi m c) (zj m c) (col ⟨q % 8, Nat.mod_lt _ (by norm_num)⟩ r) (col ⟨s % 8, Nat.mod_lt _ (by norm_num)⟩ k)

/-- The accumulating store's value over blocks that are rows of two arrays: the running column plus the block's sums. -/
theorem pay2_rows (x0 x1 : FVec Ideal S1024x128 .f32) (acc : FVec Ideal S1024x1 .f32) (a b : Arr) (p q : Fin 8)
    (h0 : ∀ r d, x0 (ix2 r d) = a (ix2 (col p r) d)) (h1 : ∀ k d, x1 (ix2 k d) = b (ix2 (col q k) d))
    (r : Fin 1024) (u : Fin 1) :
    k0_pay2 (F := Ideal) x0 x1 acc (ix2 r u) = acc (ix2 r u) + ∑ k : Fin 1024, weight a b (col p r) (col q k) := by
  rw [pay2_apply]
  refine congrArg (acc (ix2 r u) + ·) (Finset.sum_congr rfl fun k _ => ?_)
  unfold weight rowDot
  simp only [h0, h1]

/-- The same at a grid point: its blocks are blocks `t / 8` of the first array and `t % 8` of the second. -/
theorem pay2_point (c : Dev nD) (t : Fin cfg0.N) (acc : FVec Ideal S1024x1 .f32) (r : Fin 1024) (u : Fin 1) :
    k0_pay2 (F := Ideal) (iblk m c 0 t) (iblk m c 1 t) acc (ix2 r u)
      = acc (ix2 r u) + blockSum m c (t.val / 8) (t.val % 8) r := by
  have hN := lt_64 t
  refine (pay2_rows (iblk m c 0 t) (iblk m c 1 t) acc (zi m c) (zj m c) (rowBlock t) (colBlock t)
    (fun r d => iblk0_apply m c t r d) (fun k d => iblk1_apply m c t k d) r u).trans ?_
  unfold blockSum
  have e0 : rowBlock t = ⟨t.val / 8 % 8, Nat.mod_lt _ (by norm_num)⟩ := Fin.ext (by show t.val / 8 = t.val / 8 % 8; omega)
  have e1 : colBlock t = ⟨t.val % 8 % 8, Nat.mod_lt _ (by norm_num)⟩ := Fin.ext (by show t.val % 8 = t.val % 8 % 8; omega)
  rw [e0, e1]

/-! ## What the scratch holds after each point -/

/-- At a first block of columns the scratch restarts from zero. -/
theorem scratch_first (c : Dev nD) (t : Fin cfg0.N) (h0 : t.val % 8 = 0) :
    (outsAt0 m c t.val t.isLt).2 = k0_pay2 (F := Ideal) (iblk m c 0 t) (iblk m c 1 t) (k0_pay1 (F := Ideal)) := by
  have h1 : ¬t.val % 8 = 7 := by omega
  rw [outsAt0_A m c t h0 h1]
  dsimp only
  exact scratch_A (F := Ideal) c (grid0.coords t) (ms0_0 t) (hs0_0 t) (ms0_1 t) (hs0_1 t) (ms0_2 t) (hs0_2 t) scM0_0 (Memref.isWhole_whole cc0_scratch0) ((hcond0_0 t).mpr h0) (fun h => h1 ((hcond0_1 t).mp h)) (iblk m c 0 t) (iblk m c 1 t)

/-- At every later block it adds to what the point before left. -/
theorem scratch_later (c : Dev nD) (t : Fin cfg0.N) (h0 : ¬t.val % 8 = 0) :
    (outsAt0 m c t.val t.isLt).2
      = k0_pay2 (F := Ideal) (iblk m c 0 t) (iblk m c 1 t) (outsAt0 m c (t.val - 1) (Nat.lt_of_le_of_lt (Nat.sub_le _ _) t.isLt)).2 := by
  by_cases h1 : t.val % 8 = 7
  · rw [outsAt0_C m c t h0 h1]
    dsimp only
    exact scratch_C (F := Ideal) c (grid0.coords t) (ms0_0 t) (hs0_0 t) (ms0_1 t) (hs0_1 t) (ms0_2 t) (hs0_2 t) scM0_0 (Memref.isWhole_whole cc0_scratch0) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact scratch_B (F := Ideal) c (grid0.coords t) (ms0_0 t) (hs0_0 t) (ms0_1 t) (hs0_1 t) (ms0_2 t) (hs0_2 t) scM0_0 (Memref.isWhole_whole cc0_scratch0) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- THE RUNNING COLUMN: after point `n` the scratch holds, at row `r`, the block sums of the column blocks met so
    far in the current row block. -/
theorem scratch_closed (c : Dev nD) : ∀ (n : ℕ) (h : n < cfg0.N) (r : Fin 1024) (u : Fin 1),
    (outsAt0 m c n h).2 (ix2 r u) = ∑ s ∈ Finset.range (n % 8 + 1), blockSum m c (n / 8) s r := by
  intro n
  induction n with
  | zero =>
    intro h r u
    refine (congrFun (scratch_first m c ⟨0, h⟩ rfl) (ix2 r u)).trans ((pay2_point m c ⟨0, h⟩ (k0_pay1 (F := Ideal)) r u).trans ?_)
    rw [pay1_apply, zero_add]
    simp
  | succ n ih =>
    intro h r u
    by_cases h0 : (n + 1) % 8 = 0
    · refine (congrFun (scratch_first m c ⟨n + 1, h⟩ h0) (ix2 r u)).trans
        ((pay2_point m c ⟨n + 1, h⟩ (k0_pay1 (F := Ideal)) r u).trans ?_)
      rw [pay1_apply, zero_add]
      show blockSum m c ((n + 1) / 8) ((n + 1) % 8) r = _
      rw [h0]; simp
    · refine (congrFun (scratch_later m c ⟨n + 1, h⟩ h0) (ix2 r u)).trans
        ((pay2_point m c ⟨n + 1, h⟩ (outsAt0 m c n (Nat.lt_of_succ_lt h)).2 r u).trans ?_)
      show (outsAt0 m c n _).2 (ix2 r u) + blockSum m c ((n + 1) / 8) ((n + 1) % 8) r = _
      rw [ih (Nat.lt_of_succ_lt h) r u]
      have e1 : (n + 1) / 8 = n / 8 := by omega
      have e2 : (n + 1) % 8 = n % 8 + 1 := by omega
      rw [e1, e2, Finset.sum_range_succ (n := n % 8 + 1)]

/-! ## The output block at a last block of columns -/

/-- At a last block of columns the output block receives the scratch, as just updated, plus the added word. -/
theorem out_last (c : Dev nD) (t : Fin cfg0.N) (h1 : t.val % 8 = 7) :
    (outsAt0 m c t.val t.isLt).1 = k0_pay3 (F := Ideal) (outsAt0 m c t.val t.isLt).2 := by
  have h0 : ¬t.val % 8 = 0 := by omega
  rw [outsAt0_C m c t h0 h1]
  dsimp only
  exact (out_C (F := Ideal) c (grid0.coords t) (ms0_0 t) (hs0_0 t) (ms0_1 t) (hs0_1 t) (ms0_2 t) (hs0_2 t) scM0_0 (Memref.isWhole_whole cc0_scratch0) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (congrArg (k0_pay3 (F := Ideal)) (scratch_C (F := Ideal) c (grid0.coords t) (ms0_0 t) (hs0_0 t) (ms0_1 t) (hs0_1 t) (ms0_2 t) (hs0_2 t) scM0_0 (Memref.isWhole_whole cc0_scratch0) (fun h => h0 ((hcond0_0 t).mp h)) ((hcond0_1 t).mpr h1) (iblk m c 0 t) (iblk m c 1 t)
      (outsAt0 m c (t.val - 1) (Nat.lt_of_le_of_lt (Nat.sub_le _ _) t.isLt)).2).symm)

/-- All eight block sums of row block `q` make the row's sum of weights against every row of the second array. -/
theorem sum_blockSums (c : Dev nD) (q : Fin 8) (r : Fin 1024) :
    ∑ s ∈ Finset.range 8, blockSum m c q.val s r = ∑ k : Fin 8192, weight (zi m c) (zj m c) (col q r) k := by
  rw [sum_weight_by_blocks, Finset.sum_range]
  refine Finset.sum_congr rfl fun s _ => ?_
  unfold blockSum
  have eq : (⟨q.val % 8, Nat.mod_lt _ (by norm_num)⟩ : Fin 8) = q := Fin.ext (Nat.mod_eq_of_lt q.isLt)
  have es : (⟨s.val % 8, Nat.mod_lt _ (by norm_num)⟩ : Fin 8) = s := Fin.ext (Nat.mod_eq_of_lt s.isLt)
  rw [eq, es]

/-- THE OUTPUT BLOCK at a last block of columns: row `r` holds the denominator of row `1024 · (t / 8) + r`. -/
theorem out_last_apply (c : Dev nD) (t : Fin cfg0.N) (h1 : t.val % 8 = 7) (r : Fin 1024) (u : Fin 1) :
    (outsAt0 m c t.val t.isLt).1 (ix2 r u) = denom (zi m c) (zj m c) (col (rowBlock t) r) := by
  rw [out_last m c t h1, pay3_apply, scratch_closed m c t.val t.isLt r u, h1]
  show (∑ s ∈ Finset.range 8, blockSum m c (rowBlock t).val s r) + _ = _
  rw [sum_blockSums]
  rfl

end Cert.KernelIdeal.RunningColumn

end
-- ==== Proof.OutputColumn.lean ====
/-
  From blocks to the whole output. The output is one column of 8192 entries, written back in 8 blocks of 1024 rows,
  each at the last block of columns of its row block. Each written block is the matching block of ONE function of the
  row index — the row's denominator — and the 8 blocks tile the column (row `R` lies in the block written at point
  `8 · (R / 1024) + 7`), so after the run the output array holds the denominator of every row.
-/
import proofs.«167836_j6270652252920_1_alg».proof.Proof.Gen.KernelIdeal.Frame
import proofs.«167836_j6270652252920_1_alg».proof.Proof.RunningColumn
import Idealize.ShloMosaic.Lib.Pipeline.Value

noncomputable section

namespace Cert.KernelIdeal.OutputColumn

open Cert.KernelIdeal Cert.KernelIdeal.Gen Idealize.ShloMosaic Idealize.ShloMosaic.TcCoe Idealize.ShloMosaic.ValueIdx
open Idealize.SL.Sem Cert.SumByBlocks Cert.Denominator
open Cert.KernelIdeal.InputBlocks Cert.KernelIdeal.RunningColumn
open Idealize.ShloMosaic.Pipeline (Dat)

variable (m : (ℓ : Loc nD τ sig) → Buf (Elt Ideal) ℓ)

/-- The whole output column: each row's denominator, from the two normalized arrays as the region finds them. -/
def column (c : Dev nD) : Buf (Elt Ideal) ((c : Thread nD τ).loc main_v16) :=
  fun i => denom (zi m c) (zj m c) (i 0)

/-- Two columns of 1024 entries are equal when they agree at every row. -/
theorem column_ext (X Y : S1024x1.Idx → EReal) (h : ∀ (r : Fin 1024) (u : Fin 1), X (ix2 r u) = Y (ix2 r u)) : X = Y := by
  funext j
  rw [eq_ix2 j]
  exact h _ _

/-- WHAT A WRITING POINT WRITES BACK is its block of the column of denominators. -/
theorem flushed_eq (c : Dev nD) (t : Fin cfg0.N) (hf : (cfg0.win 2).flush t = true) :
    (dats m 0 c).flushed 2 t = ((cfg0.win 2).blk t).view.read (Elt Ideal) (column m c) := by
  have h1 : t.val % 8 = 7 := (flush0_2 t).mp hf
  obtain ⟨-, -, -, -, e4, e5⟩ := idx_facts t
  show (cfg0.win 2).cut (grid0.coords t) ((dats m 0 c).after 2 t) = _
  rw [after0_2]
  show (outsAt0 m c t.val t.isLt).1 = _
  refine column_ext _ _ fun r u => ?_
  rw [out_last_apply m c t h1 r u, View.read_apply]
  show denom (zi m c) (zj m c) (col (rowBlock t) r) = denom (zi m c) (zj m c) _
  refine congrArg (denom (zi m c) (zj m c)) (Fin.ext ?_)
  show 1024 * (t.val / 8) + r.val = win0_2.index t (0 : Fin 2) * 1024 + 1 * r.val
  rw [e4]; omega

/-- A row index is in point `t`'s output block iff each coordinate is in the block's range on its axis. -/
theorem mem_blk (t : Fin cfg0.N) (i : S8192x1.Idx) :
    i ∈ ((cfg0.win 2).blk t).view.set
      ↔ ∀ a : Fin 2, win0_2.index t a * S1024x1.size a ≤ (i a).val ∧ (i a).val < win0_2.index t a * S1024x1.size a + S1024x1.size a := by
  show i ∈ ((View.whole main_v16).slice (win0_2.rect t)).set ↔ _
  rw [View.set_slice_whole, Rect.mem_set_unit]
  exact Iff.rfl

/-- Every row is in the block some writing point writes: row `R` at point `8 · (R / 1024) + 7`. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ : ∃ t : Fin cfg0.N, t.val = 8 * ((i 0).val / 1024) + 7 :=
    ⟨⟨8 * ((i 0).val / 1024) + 7, by rw [show cfg0.N = 64 from N_0]; omega⟩, rfl⟩
  obtain ⟨-, -, -, -, e4, e5⟩ := idx_facts t
  refine ⟨t, (flush0_2 t).mpr (by rw [ht]; omega), ?_⟩
  rw [mem_blk]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 1 ≤ (i 1).val ∧ (i 1).val < win0_2.index t (1 : Fin 2) * 1 + 1
    rw [e5]; omega

/-- THE OUTPUT ARRAY after the run: the column of denominators. -/
theorem final (c : Dev nD) : (dats m 0 c).arrAt 2 cfg0.N = column m c :=
  (dats m 0 c).arrAt_eq_of_cover 2 (column m c) (fun t hf => flushed_eq m c t hf) cover

end Cert.KernelIdeal.OutputColumn

end
-- ==== Proof.SharedOps.lean ====
/-
  The host operations the two programs share, as three functions of arrays. Both programs first normalize each of the
  two `[8192, 128]` arguments row by row (each row divided by the larger of its Euclidean norm and a small word), and
  both end with the same computation from the arguments, the two normalized arrays and the column `den` of
  denominators: the sum over rows `R` of `a3 R · (−log (exp (⟨z0 R, z1 R⟩ / ½) / den R))`, divided by the 8192 rows,
  plus the sum over ALL entries of `exp (ls a1) · (ls a1 − ls a0)`, also divided by the 8192 rows, `ls` the row-wise
  log-softmax (every sum started from the zero word). They differ only in how `den` is computed, so these functions are
  never opened: the two results are equal as soon as the two columns `den` are.
-/
import Idealize.ShloMosaic.PureOps.Ideal
import Idealize.ShloMosaic.Lib.ValueIdx

noncomputable section

namespace Cert.SharedOps

open Idealize.ShloMosaic

abbrev S_ : Shape := ⟨0, ![]⟩
abbrev S8192 : Shape := ⟨1, ![8192]⟩
abbrev S8192x1 : Shape := ⟨2, ![8192, 1]⟩
abbrev S8192x128 : Shape := ⟨2, ![8192, 128]⟩

theorem h_S_ : 0 < S_.numel := by decide
theorem bcast_S_S8192 : S_.BroadcastsInDim S8192 (![] : Fin 0 → Fin S8192.rank) := by decide
theorem bcast_S_S8192x1 : S_.BroadcastsInDim S8192x1 (![] : Fin 0 → Fin S8192x1.rank) := by decide
theorem bcast_S8192_S8192x1_0 : S8192.BroadcastsInDim S8192x1 (![0] : Fin 1 → Fin S8192x1.rank) := by decide
theorem bcast_S8192x1_S8192x128_0_1 : S8192x1.BroadcastsInDim S8192x128 (![0, 1] : Fin 2 → Fin S8192x128.rank) := by decide
theorem reducesTo_S8192x128_S8192_d1 : S8192x128.ReducesTo [1] S8192 := by decide
theorem reducesTo_S8192x128_S_d0_1 : S8192x128.ReducesTo [0, 1] S_ := by decide
theorem reducesTo_S8192_S_d0 : S8192.ReducesTo [0] S_ := by decide

variable {F : FTy → Type} [FloatOps F]

/-- Each row divided by the larger of its Euclidean norm and the small word `0x322BCC77`. -/
def normalize (x : FVec F S8192x128 .f32) : FVec F S8192x128 .f32 :=
  Host.divf x (broadcastInDim S8192x128 ![0, 1] bcast_S8192x1_S8192x128_0_1 (maximumf (Host.sqrt (broadcastInDim S8192x1 ![0] bcast_S8192_S8192x1_0 (Host.reduceAdd (mulf x x) (constant (F := F) S_ .f32 0x00000000#32) reducesTo_S8192x128_S8192_d1 h_S_))) (broadcastInDim S8192x1 ![] bcast_S_S8192x1 (constant (F := F) S_ .f32 0x322BCC77#32))))

/-- The row-wise log-softmax: each row minus its maximum (taken against `-∞`), minus the log of the row sum of the
    exponentials of the row so shifted. -/
def logSoftmax (x : FVec F S8192x128 .f32) : FVec F S8192x128 .f32 :=
  subf (subf x (broadcastInDim S8192x128 ![0, 1] bcast_S8192x1_S8192x128_0_1 (broadcastInDim S8192x1 ![0] bcast_S8192_S8192x1_0 (maximumf (broadcastInDim S8192 ![] bcast_S_S8192 (constant (F := F) S_ .f32 0xFF800000#32)) (Host.reduce FloatOps.maximumf x (constant (F := F) S_ .f32 0xFF800000#32) reducesTo_S8192x128_S8192_d1 h_S_))))) (broadcastInDim S8192x128 ![0, 1] bcast_S8192x1_S8192x128_0_1 (Host.log (broadcastInDim S8192x1 ![0] bcast_S8192_S8192x1_0 (Host.reduceAdd (Host.exp (subf x (broadcastInDim S8192x128 ![0, 1] bcast_S8192x1_S8192x128_0_1 (broadcastInDim S8192x1 ![0] bcast_S8192_S8192x1_0 (maximumf (broadcastInDim S8192 ![] bcast_S_S8192 (constant (F := F) S_ .f32 0xFF800000#32)) (Host.reduce FloatOps.maximumf x (constant (F := F) S_ .f32 0xFF800000#32) reducesTo_S8192x128_S8192_d1 h_S_)))))) (constant (F := F) S_ .f32 0x00000000#32) reducesTo_S8192x128_S8192_d1 h_S_))))

/-- The loss from the arguments `a0 a1 a3`, the normalized arrays `z0 z1` and the column of denominators `den`. -/
def loss (a0 a1 : FVec F S8192x128 .f32) (a3 : FVec F S8192 .f32) (z0 z1 : FVec F S8192x128 .f32) (den : FVec F S8192 .f32) :
    FVec F S_ .f32 :=
  addf (Host.divf (Host.reduceAdd (mulf a3 (Host.negf (Host.log (Host.divf (Host.exp (Host.divf (Host.reduceAdd (mulf z0 z1) (constant (F := F) S_ .f32 0x00000000#32) reducesTo_S8192x128_S8192_d1 h_S_) (broadcastInDim S8192 ![] bcast_S_S8192 (constant (F := F) S_ .f32 0x3F000000#32)))) den)))) (constant (F := F) S_ .f32 0x00000000#32) reducesTo_S8192_S_d0 h_S_) (constant (F := F) S_ .f32 0x46000000#32)) (Host.divf (Host.reduceAdd (mulf (Host.exp (logSoftmax a1)) (subf (logSoftmax a1) (logSoftmax a0))) (constant (F := F) S_ .f32 0x00000000#32) reducesTo_S8192x128_S_d0_1 h_S_) (constant (F := F) S_ .f32 0x46000000#32))

end Cert.SharedOps

end
-- ==== Proof.KernelHost.lean ====
/-
  The tiled program's host lines around the region. Before the region they normalize the two arguments; after it they
  take the region's output column, read as a plain vector of 8192 entries, and compute the shared loss from it, the
  arguments and the two normalized arrays. So the program's result is the shared loss at the column of denominators.
-/
import proofs.«167836_j6270652252920_1_alg».proof.Proof.Gen.KernelIdeal.Frame
import proofs.«167836_j6270652252920_1_alg».proof.Proof.OutputColumn
import proofs.«167836_j6270652252920_1_alg».proof.Proof.SharedOps
import Idealize.ShloMosaic.Lib.StableHlo.Run
import Idealize.ShloMosaic.Lib.Pipeline.Value

noncomputable section

namespace Cert.KernelIdeal.HostValue

open Cert.KernelIdeal Cert.KernelIdeal.Gen Idealize.ShloMosaic Idealize.ShloMosaic.TcCoe Idealize.ShloMosaic.StableHlo
open Idealize.SL.Sem Cert.KernelIdeal.OutputColumn Cert.KernelIdeal.RunningColumn
open Idealize.ShloMosaic.Pipeline (Dat)

section AnyValues

variable {F : FTy → Type} [FloatOps F]

/-- Reading back what a typed reference wrote: the two transports along the same equation cancel. -/
theorem ofBuf_toBuf {Val : EltTy → Type} {T : BufTy} (x : TRef sig T) (v : T.Contents Val) : x.ofBuf (x.toBuf v) = v := by
  obtain ⟨r, h, h2, h3⟩ := x
  subst h
  rfl

/-- At a literal reference whose type is the value's, each transport is the identity. -/
theorem ofBuf_main_arg0 {Val : EltTy → Type} (h1 h2 h3) (v : (⟨S8192x128, .f32⟩ : BufTy).Contents Val) :
    (TRef.of (T := ⟨S8192x128, .f32⟩) main_arg0 h1 h2 h3).ofBuf v = v := rfl
theorem ofBuf_main_arg1 {Val : EltTy → Type} (h1 h2 h3) (v : (⟨S8192x128, .f32⟩ : BufTy).Contents Val) :
    (TRef.of (T := ⟨S8192x128, .f32⟩) main_arg1 h1 h2 h3).ofBuf v = v := rfl
theorem toBuf_main_v26 {Val : EltTy → Type} (h1 h2 h3) (v : (⟨S8192x128, .f32⟩ : BufTy).Contents Val) :
    (TRef.of (T := ⟨S8192x128, .f32⟩) main_v26 h1 h2 h3).toBuf v = v := rfl
theorem toBuf_main_v27 {Val : EltTy → Type} (h1 h2 h3) (v : (⟨S8192x128, .f32⟩ : BufTy).Contents Val) :
    (TRef.of (T := ⟨S8192x128, .f32⟩) main_v27 h1 h2 h3).toBuf v = v := rfl

/-- The lines before the region leave the first argument normalized in the region's first input array. -/
theorem before_v7 (W : Valuation τ sig (Elt F)) :
    after (hostOps0 (F := F)) W (Proc.devRef .tc main_v7) = Cert.SharedOps.normalize (W (Proc.devRef .tc main_arg0)) := by
  after_results_simp
  unfold Cert.SharedOps.normalize
  with_reducible rfl

/-- And the second argument normalized in its second input array. -/
theorem before_v15 (W : Valuation τ sig (Elt F)) :
    after (hostOps0 (F := F)) W (Proc.devRef .tc main_v15) = Cert.SharedOps.normalize (W (Proc.devRef .tc main_arg1)) := by
  after_results_simp
  unfold Cert.SharedOps.normalize
  with_reducible rfl

/-- The region's output column read as a vector of 8192 entries, spelt as the reshape's result is. -/
abbrev asVector (W : Valuation τ sig (Elt F)) : FVec F S8192 .f32 :=
  fun i => shapeCast main_v17.ty.shape (W (Proc.devRef .tc main_v16)) shapeCasts_S8192x1_S8192 i

theorem asVector_eq (W : Valuation τ sig (Elt F)) :
    asVector W = shapeCast S8192 (W (Proc.devRef .tc main_v16)) shapeCasts_S8192x1_S8192 := rfl

-- the array operations are kept folded while the two sides are compared: the comparison is argument by argument
-- (what differs is only how an element type or a shape is spelt), and never opens a full-size operation
attribute [local irreducible] Host.reduce Host.reduceAdd Host.divf Host.exp Host.log Host.negf broadcastInDim mulf subf addf
  maximumf constant shapeCast in
set_option maxRecDepth 8192 in
set_option maxHeartbeats 8000000 in
/-- The lines after the region compute the shared loss from the output column read as a vector. -/
theorem after_region (W : Valuation τ sig (Elt F)) :
    after (List.flatten [hostOps1 (F := F), hostOps1_1, hostOps1_2, hostOps1_3]) W (Proc.devRef .tc main_v36)
      = Cert.SharedOps.loss (W (Proc.devRef .tc main_arg0)) (W (Proc.devRef .tc main_arg1)) (W (Proc.devRef .tc main_arg3))
          (W (Proc.devRef .tc main_v7)) (W (Proc.devRef .tc main_v15)) (asVector W) := by
  simp only [hostOps1, hostOps1_1, hostOps1_2, hostOps1_3, List.flatten_cons, List.flatten_nil, List.append_nil, List.cons_append,
    List.nil_append]
  after_results_simp
  simp only [ofBuf_toBuf, ofBuf_main_arg0, ofBuf_main_arg1, toBuf_main_v26, toBuf_main_v27]
  unfold Cert.SharedOps.loss Cert.SharedOps.logSoftmax
  rfl

end AnyValues

/-! ## The run at the ideal values -/

variable (m : (ℓ : Loc nD τ sig) → Buf (Elt Ideal) ℓ) (ρ : Dev nD → PrngReg)

/-- What the lines after the region find: the region's arrays as the run leaves them, everything else as at entry. -/
abbrev found (c : Dev nD) : Valuation τ sig (Elt Ideal) :=
  Pipeline.withArrays (cfgs 0).spec c (V0 m c) fun w => (dats m 0 c).arrAt w (cfgs 0).N

/-- The region finds the first argument normalized. -/
theorem V_v7 (c : Dev nD) : V m c main_v7 = Cert.SharedOps.normalize (F := Ideal) (m ((c.tc : Thread nD τ).loc main_arg0)) := by
  show after (List.flatten [hostOps0 (F := Ideal)]) (fun b => m (c, b)) (Proc.devRef .tc main_v7) = _
  simp only [List.flatten_cons, List.flatten_nil, List.append_nil]
  exact before_v7 _

/-- And the second. -/
theorem V_v15 (c : Dev nD) : V m c main_v15 = Cert.SharedOps.normalize (F := Ideal) (m ((c.tc : Thread nD τ).loc main_arg1)) := by
  show after (List.flatten [hostOps0 (F := Ideal)]) (fun b => m (c, b)) (Proc.devRef .tc main_v15) = _
  simp only [List.flatten_cons, List.flatten_nil, List.append_nil]
  exact before_v15 _

theorem found_arg0 (c : Dev nD) : found m c (Proc.devRef .tc main_arg0) = m ((c.tc : Thread nD τ).loc main_arg0) :=
  (Pipeline.withArrays_of_ne _ c (V0 m c) _ main_arg0 (by exact (by decide : ∀ w, Pipeline.arrRef spec0 w ≠ main_arg0))).trans (V_main_arg0 m c)
theorem found_arg1 (c : Dev nD) : found m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)
theorem found_arg3 (c : Dev nD) : found m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)
/-- The two input arrays end as the region found them: normalized. -/
theorem found_v7 (c : Dev nD) : found m c (Proc.devRef .tc main_v7) = Cert.SharedOps.normalize (F := Ideal) (m ((c.tc : Thread nD τ).loc main_arg0)) :=
  (Pipeline.withArrays_arr spec0 launch0.win.arr_inj c _ _ 0).trans
    (((dats m 0 c).arrAt_in 0 rfl _).trans ((A_eq m c 0).trans (V_v7 m c)))
theorem found_v15 (c : Dev nD) : found m c (Proc.devRef .tc main_v15) = Cert.SharedOps.normalize (F := Ideal) (m ((c.tc : Thread nD τ).loc main_arg1)) :=
  (Pipeline.withArrays_arr spec0 launch0.win.arr_inj c _ _ 1).trans
    (((dats m 0 c).arrAt_in 1 rfl _).trans ((A_eq m c 1).trans (V_v15 m c)))
/-- The output array ends at the column of denominators. -/
theorem found_v16 (c : Dev nD) : found m c (Proc.devRef .tc main_v16) = column m c :=
  (Pipeline.withArrays_arr spec0 launch0.win.arr_inj c _ _ 2).trans (final m c)

/-- THE RESULT of the lines after the region: the shared loss at the column of denominators read as a vector. -/
theorem result_eq (c : Dev nD) :
    Pipeline.afterTail₀ cfgs (dats m) 0 (V0 m) [hostOps1, hostOps1_1, hostOps1_2, hostOps1_3] c main_v36
      = Cert.SharedOps.loss (F := Ideal) (m ((c.tc : Thread nD τ).loc main_arg0)) (m ((c.tc : Thread nD τ).loc main_arg1))
          (m ((c.tc : Thread nD τ).loc main_arg3))
          (Cert.SharedOps.normalize (F := Ideal) (m ((c.tc : Thread nD τ).loc main_arg0)))
          (Cert.SharedOps.normalize (F := Ideal) (m ((c.tc : Thread nD τ).loc main_arg1)))
          (shapeCast S8192 (column m c) shapeCasts_S8192x1_S8192) := by
  unfold Pipeline.afterTail₀
  refine (after_region (found m c)).trans ?_
  rw [asVector_eq, found_arg0, found_arg1, found_arg3, found_v7, found_v15, found_v16]

/-- THE RUN, read: every weakly fair execution terminates with the result at the shared loss of the column of
    denominators, the arguments unchanged. -/
theorem run : θ_run defs (onTc (τ := τ) (main (F := Ideal))) ⟨m, fun _ => 0, ρ⟩ fun r => ∀ c : Dev nD,
      r.2.mem ((c.tc : Thread nD τ).loc main_v36)
        = Cert.SharedOps.loss (F := Ideal) (m ((c.tc : Thread nD τ).loc main_arg0)) (m ((c.tc : Thread nD τ).loc main_arg1))
            (m ((c.tc : Thread nD τ).loc main_arg3))
            (Cert.SharedOps.normalize (F := Ideal) (m ((c.tc : Thread nD τ).loc main_arg0)))
            (Cert.SharedOps.normalize (F := Ideal) (m ((c.tc : Thread nD τ).loc main_arg1)))
            (shapeCast S8192 (column m c) shapeCasts_S8192x1_S8192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v36 (Pipeline.mem_restRefs_of main_v36 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HostValue

end
-- ==== Proof.ReferenceDenominator.lean ====
/-
  The plain program's denominators. From the two normalized arrays it forms the full 8192 × 8192 matrix of inner
  products of rows of the first with rows of the second (one contraction over the 128 coordinates), divides every
  entry by one half, exponentiates, sums each row over all 8192 columns starting from the zero word, and adds the
  small positive word. Read at row `R` that is `0 + ∑ k, exp (⟨z0 R, z1 k⟩ / ½)`, plus the word: the denominator of
  row `R`, since dividing by one half is doubling. The rest of the program is the shared loss at this column.
-/
import proofs.«167836_j6270652252920_1_alg».proof.Proof.ReferenceRun
import proofs.«167836_j6270652252920_1_alg».proof.Proof.SharedOps
import proofs.«167836_j6270652252920_1_alg».proof.Proof.Denominator
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx
open Idealize.SL.Sem Cert.Denominator

/-- The contraction of the full product: rows of the first array against rows of the second. -/
abbrev D := dot_S8192x128_S8192x128_S8192x8192_1_1_0_0_n_n

section Stages

variable {F : FTy → Type} [FloatOps F]

/-- The column of denominators as the plain program computes it from the two normalized arrays. -/
def refDen (z0 z1 : FVec F S8192x128 .f32) : FVec F S8192 .f32 :=
  addf (Host.reduceAdd (Host.exp (Host.divf (Host.dotGeneral dot_S8192x128_S8192x128_S8192x8192_1_1_0_0_n_n none z0 z1) (broadcastInDim S8192x8192 ![] bcast_S_S8192x8192 (constant (F := F) S_ .f32 0x3F000000#32)))) (constant (F := F) S_ .f32 0x00000000#32) reducesTo_S8192x8192_S8192_d1 h_S_) (broadcastInDim S8192 ![] bcast_S_S8192 (constant (F := F) S_ .f32 0x3089705F#32))

/-- THE PLAIN PROGRAM'S RESULT is the shared loss at its own column of denominators. -/
theorem res_eq (m : (ℓ : Loc nD τ sig) → Buf (Elt F) ℓ) (c : Dev nD) :
    Cert.ReferenceIdeal.ValueP.res_main_v41 m c
      = Cert.SharedOps.loss (m ((c.tc : Thread nD τ).loc main_arg0)) (m ((c.tc : Thread nD τ).loc main_arg1))
          (m ((c.tc : Thread nD τ).loc main_arg3))
          (Cert.SharedOps.normalize (m ((c.tc : Thread nD τ).loc main_arg0)))
          (Cert.SharedOps.normalize (m ((c.tc : Thread nD τ).loc main_arg1)))
          (refDen (Cert.SharedOps.normalize (m ((c.tc : Thread nD τ).loc main_arg0)))
            (Cert.SharedOps.normalize (m ((c.tc : Thread nD τ).loc main_arg1)))) := by
  unfold Cert.ReferenceIdeal.ValueP.res_main_v41 Cert.SharedOps.loss Cert.SharedOps.logSoftmax Cert.SharedOps.normalize refDen
  with_reducible rfl

end Stages

/-! ## The denominators at a row -/

theorem lhs0 (i : S8192x8192.Idx) (q : D.contr.Idx) : (D.lhsIdx i q 0).val = (i 0).val := by
  unfold DotDims.lhsIdx
  rw [dif_neg (show ¬(0 : Fin S8192x128.rank) ∈ D.lhsBatch by decide), dif_pos (show (0 : Fin S8192x128.rank) ∈ D.lhsNonContracting by decide)]
  rfl
theorem lhs1 (i : S8192x8192.Idx) (q : D.contr.Idx) : (D.lhsIdx i q 1).val = (q ⟨0, by decide⟩).val :=
  D.lhsIdx_val_of_single rfl i q
theorem rhs0 (i : S8192x8192.Idx) (q : D.contr.Idx) : (D.rhsIdx i q 0).val = (i 1).val := by
  unfold DotDims.rhsIdx
  rw [dif_neg (show ¬(0 : Fin S8192x128.rank) ∈ D.rhsBatch by decide), dif_pos (show (0 : Fin S8192x128.rank) ∈ D.rhsNonContracting by decide)]
  rfl
theorem rhs1 (i : S8192x8192.Idx) (q : D.contr.Idx) : (D.rhsIdx i q 1).val = (q ⟨0, by decide⟩).val :=
  D.rhsIdx_val_of_single rfl i q

/-- Entry `(R, k)` of the full product is the inner product of row `R` of `z0` with row `k` of `z1`. -/
theorem gram_apply (z0 z1 : FVec Ideal S8192x128 .f32) (R k : Fin 8192) :
    Host.dotGeneral D none z0 z1 (ix2 R k) = rowDot z0 z1 R k := by
  simp only [Host.dotGeneral]
  rw [Ideal.dotGeneral_apply, ← Equiv.sum_comp (contrEquiv1 D 128 rfl rfl).symm]
  unfold rowDot
  refine Finset.sum_congr rfl fun d _ => ?_
  have hd := contrEquiv1_symm_val D 128 rfl rfl d
  have el : D.lhsIdx (ix2 R k) ((contrEquiv1 D 128 rfl rfl).symm d) = ix2 R d := funext fun a => Fin.ext (by
    match a with
    | ⟨0, _⟩ => exact lhs0 _ _
    | ⟨1, _⟩ => exact (lhs1 _ _).trans hd)
  have er : D.rhsIdx (ix2 R k) ((contrEquiv1 D 128 rfl rfl).symm d) = ix2 k d := funext fun a => Fin.ext (by
    match a with
    | ⟨0, _⟩ => exact rhs0 _ _
    | ⟨1, _⟩ => exact (rhs1 _ _).trans hd)
  rw [el, er]

/-- Entry `(R, k)` after the quotient by one half and the exponential is the pair's weight. -/
theorem weights_apply (z0 z1 : FVec Ideal S8192x128 .f32) (R k : Fin 8192) :
    Host.exp (Host.divf (Host.dotGeneral D none z0 z1)
        (broadcastInDim S8192x8192 ![] bcast_S_S8192x8192 (constant (F := Ideal) S_ .f32 0x3F000000#32))) (ix2 R k)
      = weight z0 z1 R k := by
  show Ideal.exp (Ideal.div (Host.dotGeneral D none z0 z1 (ix2 R k))
    (broadcastInDim S8192x8192 ![] bcast_S_S8192x8192 (constant (F := Ideal) S_ .f32 0x3F000000#32) (ix2 R k))) = _
  rw [gram_apply, broadcastInDim_apply _ bcast_S_S8192x8192 _ (ix2 R k) ix0 (fun a => a.elim0)]
  exact weight_eq_div_half z0 z1 R k

/-- THE PLAIN PROGRAM'S COLUMN at row `R` is the denominator of row `R`. -/
theorem refDen_apply (z0 z1 : FVec Ideal S8192x128 .f32) (R : Fin 8192) :
    refDen (F := Ideal) z0 z1 (ix1 R) = denom z0 z1 R := by
  unfold refDen denom
  rw [addf_apply, broadcastInDim_apply _ bcast_S_S8192 _ (ix1 R) ix0 (fun a => a.elim0)]
  refine congrArg (· + Ideal.ofBits .f32 0x3089705F#32) ?_
  simp only [Host.reduceAdd, Ideal.hostReduceAdd_def]
  rw [Ideal.hostReduceAdd_single reducesTo_S8192x8192_S8192_d1 (by decide)]
  show Ideal.ofBits .f32 0x00000000#32 + ∑ k : Fin 8192, _ = _
  rw [Ideal.ofBits_zero_f32, zero_add]
  refine Finset.sum_congr rfl fun k _ => ?_
  refine (congrArg _ (?_ : _ = ix2 R k)).trans (weights_apply z0 z1 R k)
  funext a
  apply Fin.ext
  match a with
  | ⟨0, _⟩ => rfl
  | ⟨1, _⟩ => rfl

end Cert.ReferenceIdeal.RefValue

end
-- ==== Proof.ColumnsAgree.lean ====
/-
  The two columns of denominators are one. The tiled program leaves an `[8192, 1]` column whose row `R` is the
  denominator of row `R` of the two normalized arrays, and reads it as a vector; the plain program's vector has the
  same denominator at `R`. Both are the function `Cert.Denominator.denom` of the same two arrays.
-/
import proofs.«167836_j6270652252920_1_alg».proof.Proof.KernelHost
import proofs.«167836_j6270652252920_1_alg».proof.Proof.ReferenceDenominator
import proofs.«167836_j6270652252920_1_alg».proof.Proof.LibColumns

noncomputable section

namespace Cert.Proof.ColumnsAgree

open Idealize.ShloMosaic Idealize.ShloMosaic.TcCoe Idealize.ShloMosaic.ValueIdx Idealize.SL.Sem Cert.Denominator

/-- The tiled program's column, read as a vector, is the plain program's column of the same normalized arrays. -/
theorem columns_agree (m : (ℓ : Loc Cert.KernelIdeal.nD Cert.KernelIdeal.τ Cert.KernelIdeal.sig) → Buf (Elt Ideal) ℓ)
    (c : Dev Cert.KernelIdeal.nD) :
    shapeCast Cert.KernelIdeal.S8192 (Cert.KernelIdeal.OutputColumn.column m c) Cert.KernelIdeal.Gen.shapeCasts_S8192x1_S8192
      = Cert.ReferenceIdeal.RefValue.refDen (F := Ideal)
          (Cert.SharedOps.normalize (F := Ideal) (m ((c.tc : Thread Cert.KernelIdeal.nD Cert.KernelIdeal.τ).loc Cert.KernelIdeal.main_arg0)))
          (Cert.SharedOps.normalize (F := Ideal) (m ((c.tc : Thread Cert.KernelIdeal.nD Cert.KernelIdeal.τ).loc Cert.KernelIdeal.main_arg1))) := by
  funext i
  obtain ⟨R, rfl⟩ : ∃ R : Fin 8192, i = ix1 R := ⟨i 0, eq_ix1 i⟩
  refine (Cert.LibColumns.shapeCast_a1_a_apply _ _ R).trans ?_
  refine Eq.trans ?_ (Cert.ReferenceIdeal.RefValue.refDen_apply _ _ R).symm
  show denom (Cert.KernelIdeal.Gen.V m c Cert.KernelIdeal.main_v7) (Cert.KernelIdeal.Gen.V m c Cert.KernelIdeal.main_v15) R = _
  rw [Cert.KernelIdeal.HostValue.V_v7, Cert.KernelIdeal.HostValue.V_v15]

end Cert.Proof.ColumnsAgree

end
-- ==== Proof.lean ====
/-
  A contrastive loss over two arrays `z_i, z_j : f32[8192, 128]` with weights `w : f32[8192]`: both programs normalize
  the rows of the two arrays, and both end with the same loss computed from the arguments, the normalized arrays and,
  for every row `R`, the DENOMINATOR `∑ k, exp (⟨ẑ_i R, ẑ_j k⟩ / ½) + ε` over all 8192 rows `k` of the second array.
  They differ only in how that column of denominators is computed.

  The plain program forms the full 8192 × 8192 matrix of inner products, divides by one half, exponentiates, and sums
  each row from zero. The tiled program never forms the matrix: on an 8 × 8 grid of blocks of 1024 rows it multiplies a
  block of rows of the first array with the transpose of a block of rows of the second (in a narrower float format,
  which on extended reals is the identity), DOUBLES the products, exponentiates, sums each row over the block's 1024
  columns, and adds that to a running column kept across the 8 blocks of columns, started from zero at the first; at
  the last block it writes the column plus `ε` to its block of the output.

  At the ideal values the two agree: dividing an extended real by one half is doubling it (at the infinities too), and
  a sum over 8192 columns is the sum over 8 blocks of the blocks' sums — addition of extended reals is commutative and
  associative, so nothing needs the inputs to be finite, and the precondition is never opened.

    Proof/Doubling, SumByBlocks, Denominator   the law, the regrouping, and the denominator as ONE function of two arrays
    Proof/Pieces, BlockRowSums, InputBlocks    one grid point: what it stores, its arithmetic at an index, which rows it reads
    Proof/RunningColumn, OutputColumn          the running column in closed form (induction on the point); the output array
    Proof/SharedOps, KernelHost                the shared host operations as three opaque functions; the tiled program's run
    Proof/ReferenceRun, ReferenceDenominator   the plain program's run and its column at a row
    Proof/ColumnsAgree                         the two columns are the same function of the same normalized arrays
  The ideal pass rewrote nothing, so `preserves` is `True`; the three frames are the generated ones (the plain
  program's is its run with the result dropped).
-/
import proofs.«167836_j6270652252920_1_alg».proof.Defs
import proofs.«167836_j6270652252920_1_alg».proof.Proof.Gen.Kernel
import proofs.«167836_j6270652252920_1_alg».proof.Proof.Gen.Kernel.Frame
import proofs.«167836_j6270652252920_1_alg».proof.Proof.Gen.KernelIdeal
import proofs.«167836_j6270652252920_1_alg».proof.Proof.Gen.KernelIdeal.Frame
import proofs.«167836_j6270652252920_1_alg».proof.Proof.Gen.ReferenceIdeal
import proofs.«167836_j6270652252920_1_alg».proof.Proof.Gen.Pre_finite_inputs
import proofs.«167836_j6270652252920_1_alg».proof.Proof.KernelHost
import proofs.«167836_j6270652252920_1_alg».proof.Proof.ReferenceRun
import proofs.«167836_j6270652252920_1_alg».proof.Proof.ReferenceDenominator
import proofs.«167836_j6270652252920_1_alg».proof.Proof.ColumnsAgree
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At the ideal values both programs end at the shared loss of the same arguments, the same normalized arrays and the
    same column of denominators. -/
theorem algebraic : Cert.algebraic_KernelIdeal_ReferenceIdeal := by
  intro m ρ m' ρ' _ hagree
  refine ⟨fun c => Cert.SharedOps.loss (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
      (Cert.SharedOps.normalize (F := Ideal) (m ((c.tc : Thread Cert.KernelIdeal.nD Cert.KernelIdeal.τ).loc Cert.KernelIdeal.main_arg0))) (Cert.SharedOps.normalize (F := Ideal) (m ((c.tc : Thread Cert.KernelIdeal.nD Cert.KernelIdeal.τ).loc Cert.KernelIdeal.main_arg1)))
      (shapeCast Cert.KernelIdeal.S8192 (Cert.KernelIdeal.OutputColumn.column m c) Cert.KernelIdeal.Gen.shapeCasts_S8192x1_S8192),
    Cert.KernelIdeal.HostValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq, (hagree c).1, (hagree c).2.1, (hagree c).2.2.2]
  exact congrArg (Cert.SharedOps.loss (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
      (Cert.SharedOps.normalize (F := Ideal) (m ((c.tc : Thread Cert.KernelIdeal.nD Cert.KernelIdeal.τ).loc Cert.KernelIdeal.main_arg0))) (Cert.SharedOps.normalize (F := Ideal) (m ((c.tc : Thread Cert.KernelIdeal.nD Cert.KernelIdeal.τ).loc Cert.KernelIdeal.main_arg1))))
    (Cert.Proof.ColumnsAgree.columns_agree m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
